-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v39_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v39_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x128 : Shape := ⟨2, ![640000, 128]⟩
abbrev S5000x128 : Shape := ⟨2, ![5000, 128]⟩
abbrev S5000x1 : Shape := ⟨2, ![5000, 1]⟩
abbrev S1x128 : Shape := ⟨2, ![1, 128]⟩
abbrev S50000x64 : Shape := ⟨2, ![50000, 64]⟩

abbrev nBuf : Space → Nat
  | .hbm => 63
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .f32⟩
  | .hbm, ⟨14, _⟩ => ⟨S640000, .f32⟩
  | .hbm, ⟨15, _⟩ => ⟨S_, .f32⟩
  | .hbm, ⟨16, _⟩ => ⟨S50000, .f32⟩
  | .hbm, ⟨17, _⟩ => ⟨S640000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .bf16⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .bf16⟩
  | .hbm, ⟨36, _⟩ => ⟨S640000x128, .f32⟩
  | .hbm, ⟨37, _⟩ => ⟨S_, .f32⟩
  | .hbm, ⟨38, _⟩ => ⟨S50000x128, .f32⟩
  | .hbm, ⟨39, _⟩ => ⟨S640000x1, .i32⟩
  | .hbm, ⟨40, _⟩ => ⟨S50000x128, .f32⟩
  | .hbm, ⟨41, _⟩ => ⟨S50000x128, .f32⟩
  | .hbm, ⟨42, _⟩ => ⟨S50000x128, .bf16⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .bf16⟩
  | .hbm, ⟨52, _⟩ => ⟨S640000x128, .f32⟩
  | .hbm, ⟨53, _⟩ => ⟨S_, .f32⟩
  | .hbm, ⟨54, _⟩ => ⟨S50000x128, .f32⟩
  | .hbm, ⟨55, _⟩ => ⟨S640000x1, .i32⟩
  | .hbm, ⟨56, _⟩ => ⟨S50000x128, .f32⟩
  | .hbm, ⟨57, _⟩ => ⟨S_, .i32⟩
  | .hbm, ⟨58, _⟩ => ⟨S_, .f32⟩
  | .hbm, ⟨59, _⟩ => ⟨S128x128, .f32⟩
  | .hbm, ⟨60, _⟩ => ⟨S50000x128, .f32⟩
  | .hbm, ⟨61, _⟩ => ⟨S50000x128, .f32⟩
  | .hbm, ⟨62, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_call0_v0 : Ref sig .tc := ⟨.hbm, 58, rfl⟩
abbrev main_v38 : Ref sig .tc := ⟨.hbm, 59, rfl⟩
abbrev main_v39_0 : Ref sig .tc := ⟨.hbm, 60, rfl⟩
abbrev main_v39_1 : Ref sig .tc := ⟨.hbm, 61, rfl⟩
abbrev main_v40 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  pads_S128x64_S128x128_000_0640 : S128x64.Pads (![0, 0] : Fin 2 → Nat) ![0, 64] ![0, 0] S128x128
  h_S_ : 0 < S_.numel
  shapeCasts_S128x128_S128x128 : S128x128.ShapeCasts S128x128
  slices_S50000x128_S50000x64_0_0 : S50000x128.Slices ![0, 0] S50000x64
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v39_1) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .f32⟩
  | .hbm, ⟨23, _⟩ => ⟨S50000x128, .f32⟩
  | .hbm, ⟨24, _⟩ => ⟨S640000x1, .i32⟩
  | .hbm, ⟨25, _⟩ => ⟨S50000x128, .f32⟩
  | .hbm, ⟨26, _⟩ => ⟨S_, .f32⟩
  | .hbm, ⟨27, _⟩ => ⟨S640000, .f32⟩
  | .hbm, ⟨28, _⟩ => ⟨S_, .f32⟩
  | .hbm, ⟨29, _⟩ => ⟨S50000, .f32⟩
  | .hbm, ⟨30, _⟩ => ⟨S640000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S_, .f32⟩
  | .hbm, ⟨57, _⟩ => ⟨S50000x128, .f32⟩
  | .hbm, ⟨58, _⟩ => ⟨S640000x1, .i32⟩
  | .hbm, ⟨59, _⟩ => ⟨S50000x128, .f32⟩
  | .hbm, ⟨60, _⟩ => ⟨S_, .f32⟩
  | .hbm, ⟨61, _⟩ => ⟨S640000, .f32⟩
  | .hbm, ⟨62, _⟩ => ⟨S_, .f32⟩
  | .hbm, ⟨63, _⟩ => ⟨S50000, .f32⟩
  | .hbm, ⟨64, _⟩ => ⟨S640000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.SageLayer.lean ====
/-
  One layer of mean-aggregating graph convolution, entry by entry, on the extended reals.

  For an n×128 feature matrix X, an n×128 matrix A of neighbour sums, weights Wl, Wr (128×128) and a bias b, the layer's
  entry (r, q) is   (Σ_k M(r,k)·Wl(k,q) + b(q)) + Σ_k X(r,k)·Wr(k,q),   where M is the row-normalised aggregate:
  either A(r,k) times a per-row reciprocal 1 / max(c_r, 1), or A(r,k) divided by max(c_r, 1).  The two are the same
  extended real for EVERY count c_r and every entry A(r,k), infinite ones included: max(c_r, 1) ≥ 1 is never 0, so the
  quotient is the product with the inverse, and 1 / y is that inverse (div_max_one).  Everything else here only says
  that an entry of the layer depends on row r of X, A and of the normaliser, which is what lets a block of rows
  computed from a block of the inputs be read as a block of the whole result.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx

/-- The pattern of 1.0 denotes 1. -/
theorem one_f32 : Ideal.ofBits .f32 0x3F800000#32 = 1 := by
  simp [Ideal.ofBits, Ideal.ieee, -EReal.coe_mul]; norm_num

/-- The pattern of +0.0 denotes 0. -/
theorem zero_f32 : Ideal.ofBits .f32 0x00000000#32 = 0 := by
  simp [Ideal.ofBits, Ideal.ieee]

/-- Dividing by max(c, 1) is multiplying by 1 / max(c, 1), for every extended real a and c: the divisor is at least 1,
    hence not 0, so both quotients are products with its inverse. -/
theorem div_max_one (a c : EReal) :
    Ideal.div a (max c (Ideal.ofBits .f32 0x3F800000#32))
      = a * Ideal.div (Ideal.ofBits .f32 0x3F800000#32) (max c (Ideal.ofBits .f32 0x3F800000#32)) := by
  rw [one_f32]
  have h : max c (1 : EReal) ≠ 0 := ne_of_gt (lt_of_lt_of_le zero_lt_one (le_max_right c 1))
  unfold Ideal.div
  rw [if_neg h, if_neg h, one_mul]

/-- An n×k matrix and an n-vector of extended reals, indexed as arrays are. -/
abbrev Mat (n k : ℕ) : Type := (⟨2, ![n, k]⟩ : Shape).Idx → EReal
abbrev Vct (n : ℕ) : Type := (⟨1, ![n]⟩ : Shape).Idx → EReal

/-- Entry (r, q) of M·Wl + b + X·Wr, the normalised aggregate M given by its entries. -/
def layerAt {n : ℕ} (M : Fin n → Fin 128 → EReal) (X : Mat n 128) (Wl Wr : Mat 128 128) (b : Vct 128)
    (r : Fin n) (q : Fin 128) : EReal :=
  ((∑ k : Fin 128, M r k * Wl (ix2 k q)) + b (ix1 q)) + ∑ k : Fin 128, X (ix2 r k) * Wr (ix2 k q)

/-- The aggregate times a per-row factor held in a one-column matrix. -/
def meanMul {n : ℕ} (A : Mat n 128) (I : Mat n 1) : Fin n → Fin 128 → EReal :=
  fun r k => A (ix2 r k) * I (ix2 r (0 : Fin 1))

/-- The aggregate divided by the count clamped below at 1. -/
def meanDiv {n : ℕ} (A : Mat n 128) (C : Vct n) : Fin n → Fin 128 → EReal :=
  fun r k => Ideal.div (A (ix2 r k)) (max (C (ix1 r)) (Ideal.ofBits .f32 0x3F800000#32))

/-- With the factor 1 / max(c_r, 1) in the column, the two normalisations agree. -/
theorem meanMul_eq_meanDiv {n : ℕ} (A : Mat n 128) (I : Mat n 1) (C : Vct n)
    (hI : ∀ r : Fin n, I (ix2 r (0 : Fin 1))
      = Ideal.div (Ideal.ofBits .f32 0x3F800000#32) (max (C (ix1 r)) (Ideal.ofBits .f32 0x3F800000#32))) :
    meanMul A I = meanDiv A C := by
  funext r k
  unfold meanMul meanDiv
  rw [hI r]
  exact (div_max_one _ _).symm

/-- The layer before its activation, as an array: product form of the normalisation. -/
def pre {n : ℕ} (X A : Mat n 128) (I : Mat n 1) (Wl : Mat 128 128) (b : Vct 128) (Wr : Mat 128 128) : Mat n 128 :=
  fun i => layerAt (meanMul A I) X Wl Wr b (i 0) (i 1)

/-- The layer followed by max(·, 0). -/
def act {n : ℕ} (X A : Mat n 128) (I : Mat n 1) (Wl : Mat 128 128) (b : Vct 128) (Wr : Mat 128 128) : Mat n 128 :=
  fun i => max (pre X A I Wl b Wr i) (Ideal.ofBits .f32 0x00000000#32)

/-- The layer followed by a 128×128 projection. -/
def proj {n : ℕ} (X A : Mat n 128) (I : Mat n 1) (Wl : Mat 128 128) (b : Vct 128) (Wr Ws : Mat 128 128) : Mat n 128 :=
  fun i => ∑ k : Fin 128, pre X A I Wl b Wr (ix2 (i 0) k) * Ws (ix2 k (i 1))

theorem pre_ix2 {n : ℕ} (X A : Mat n 128) (I : Mat n 1) (Wl : Mat 128 128) (b : Vct 128) (Wr : Mat 128 128)
    (r : Fin n) (q : Fin 128) : pre X A I Wl b Wr (ix2 r q) = layerAt (meanMul A I) X Wl Wr b r q := rfl

/-- An entry of the layer reads row r only: two sets of inputs that agree on a row give the same entries there
    (the rows may sit at different places of matrices with different numbers of rows). -/
theorem layerAt_congr {n n' : ℕ} (M : Fin n → Fin 128 → EReal) (M' : Fin n' → Fin 128 → EReal) (X : Mat n 128) (X' : Mat n' 128)
    (Wl Wr : Mat 128 128) (b : Vct 128) (r : Fin n) (r' : Fin n') (q : Fin 128)
    (hM : ∀ k, M r k = M' r' k) (hX : ∀ k, X (ix2 r k) = X' (ix2 r' k)) :
    layerAt M X Wl Wr b r q = layerAt M' X' Wl Wr b r' q := by
  unfold layerAt
  have e1 : ∑ k : Fin 128, M r k * Wl (ix2 k q) = ∑ k : Fin 128, M' r' k * Wl (ix2 k q) :=
    Finset.sum_congr rfl fun k _ => by rw [hM k]
  have e2 : ∑ k : Fin 128, X (ix2 r k) * Wr (ix2 k q) = ∑ k : Fin 128, X' (ix2 r' k) * Wr (ix2 k q) :=
    Finset.sum_congr rfl fun k _ => by rw [hX k]
  rw [e1, e2]

theorem proj_ix2 {n : ℕ} (X A : Mat n 128) (I : Mat n 1) (Wl : Mat 128 128) (b : Vct 128) (Wr Ws : Mat 128 128)
    (r : Fin n) (q : Fin 128) :
    proj X A I Wl b Wr Ws (ix2 r q) = ∑ k : Fin 128, pre X A I Wl b Wr (ix2 r k) * Ws (ix2 k q) := rfl

/-- An index with coordinates (r, q). -/
theorem eq_ix2_of_vals {n m : ℕ} (i : (⟨2, ![n, m]⟩ : Shape).Idx) (r : Fin n) (q : Fin m)
    (h0 : (i 0).val = r.val) (h1 : (i 1).val = q.val) : i = ix2 r q := by
  funext a
  match a with
  | ⟨0, _⟩ => exact Fin.ext h0
  | ⟨1, _⟩ => exact Fin.ext h1

/-- Row r of one set of inputs against row r' of another (matrices of possibly different heights) that agree there:
    the layer's entries on the two rows agree. -/
theorem pre_rows {n n' : ℕ} (X A : Mat n 128) (I : Mat n 1) (X' A' : Mat n' 128) (I' : Mat n' 1)
    (Wl : Mat 128 128) (b : Vct 128) (Wr : Mat 128 128) (r : Fin n) (r' : Fin n') (q : Fin 128)
    (hX : ∀ k : Fin 128, X (ix2 r k) = X' (ix2 r' k)) (hA : ∀ k : Fin 128, A (ix2 r k) = A' (ix2 r' k))
    (hI : I (ix2 r (0 : Fin 1)) = I' (ix2 r' (0 : Fin 1))) :
    pre X A I Wl b Wr (ix2 r q) = pre X' A' I' Wl b Wr (ix2 r' q) := by
  rw [pre_ix2, pre_ix2]
  exact layerAt_congr _ _ _ _ _ _ _ r r' q (fun k => by unfold meanMul; rw [hA k, hI]) hX

/-- The same for an entry of the activated layer, the entries named by their coordinates. -/
theorem act_rows {n n' : ℕ} (X A : Mat n 128) (I : Mat n 1) (X' A' : Mat n' 128) (I' : Mat n' 1)
    (Wl : Mat 128 128) (b : Vct 128) (Wr : Mat 128 128) (Wl' : Mat 128 128) (b' : Vct 128) (Wr' : Mat 128 128)
    (i : (⟨2, ![n, 128]⟩ : Shape).Idx) (i' : (⟨2, ![n', 128]⟩ : Shape).Idx) (r : Fin n) (r' : Fin n') (q : Fin 128)
    (h0 : (i 0).val = r.val) (h1 : (i 1).val = q.val) (h0' : (i' 0).val = r'.val) (h1' : (i' 1).val = q.val)
    (hX : ∀ k : Fin 128, X (ix2 r k) = X' (ix2 r' k)) (hA : ∀ k : Fin 128, A (ix2 r k) = A' (ix2 r' k))
    (hI : I (ix2 r (0 : Fin 1)) = I' (ix2 r' (0 : Fin 1))) (hWl : Wl = Wl') (hb : b = b') (hWr : Wr = Wr') :
    act X A I Wl b Wr i = act X' A' I' Wl' b' Wr' i' := by
  subst hWl hb hWr
  rw [eq_ix2_of_vals i r q h0 h1, eq_ix2_of_vals i' r' q h0' h1']
  unfold act
  rw [pre_rows X A I X' A' I' Wl b Wr r r' q hX hA hI]

/-- The same for an entry of the layer itself. -/
theorem pre_rows' {n n' : ℕ} (X A : Mat n 128) (I : Mat n 1) (X' A' : Mat n' 128) (I' : Mat n' 1)
    (Wl : Mat 128 128) (b : Vct 128) (Wr : Mat 128 128) (Wl' : Mat 128 128) (b' : Vct 128) (Wr' : Mat 128 128)
    (i : (⟨2, ![n, 128]⟩ : Shape).Idx) (i' : (⟨2, ![n', 128]⟩ : Shape).Idx) (r : Fin n) (r' : Fin n') (q : Fin 128)
    (h0 : (i 0).val = r.val) (h1 : (i 1).val = q.val) (h0' : (i' 0).val = r'.val) (h1' : (i' 1).val = q.val)
    (hX : ∀ k : Fin 128, X (ix2 r k) = X' (ix2 r' k)) (hA : ∀ k : Fin 128, A (ix2 r k) = A' (ix2 r' k))
    (hI : I (ix2 r (0 : Fin 1)) = I' (ix2 r' (0 : Fin 1))) (hWl : Wl = Wl') (hb : b = b') (hWr : Wr = Wr') :
    pre X A I Wl b Wr i = pre X' A' I' Wl' b' Wr' i' := by
  subst hWl hb hWr
  rw [eq_ix2_of_vals i r q h0 h1, eq_ix2_of_vals i' r' q h0' h1']
  exact pre_rows X A I X' A' I' Wl b Wr r r' q hX hA hI

/-- And for an entry of the projected layer. -/
theorem proj_rows {n n' : ℕ} (X A : Mat n 128) (I : Mat n 1) (X' A' : Mat n' 128) (I' : Mat n' 1)
    (Wl : Mat 128 128) (b : Vct 128) (Wr Ws : Mat 128 128) (Wl' : Mat 128 128) (b' : Vct 128) (Wr' Ws' : Mat 128 128)
    (i : (⟨2, ![n, 128]⟩ : Shape).Idx) (i' : (⟨2, ![n', 128]⟩ : Shape).Idx) (r : Fin n) (r' : Fin n') (q : Fin 128)
    (h0 : (i 0).val = r.val) (h1 : (i 1).val = q.val) (h0' : (i' 0).val = r'.val) (h1' : (i' 1).val = q.val)
    (hX : ∀ k : Fin 128, X (ix2 r k) = X' (ix2 r' k)) (hA : ∀ k : Fin 128, A (ix2 r k) = A' (ix2 r' k))
    (hI : I (ix2 r (0 : Fin 1)) = I' (ix2 r' (0 : Fin 1))) (hWl : Wl = Wl') (hb : b = b') (hWr : Wr = Wr') (hWs : Ws = Ws') :
    proj X A I Wl b Wr Ws i = proj X' A' I' Wl' b' Wr' Ws' i' := by
  subst hWl hb hWr hWs
  rw [eq_ix2_of_vals i r q h0 h1, eq_ix2_of_vals i' r' q h0' h1', proj_ix2, proj_ix2]
  exact Finset.sum_congr rfl fun k _ => by rw [pre_rows X A I X' A' I' Wl b Wr r r' k hX hA hI]

/-- A one-column matrix spread across b columns reads its column. -/
theorem spreadCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-column matrix repeated across b columns (the host's spelling) reads its column. -/
theorem bcastCol_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => match ax with
    | ⟨0, _⟩ => by
      show p.val = if a = 1 then 0 else p.val
      split
      · have := p.isLt; omega
      · rfl
    | ⟨1, _⟩ => rfl

/-- A vector stood up as a one-column matrix (the host's spelling) reads the vector. -/
theorem bcastVecCol_apply {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply _ h v _ _ fun ax => match ax with
    | ⟨0, _⟩ => by
      show p.val = if a = 1 then 0 else p.val
      split
      · have := p.isLt; omega
      · rfl

/-- A vector recast as a one-column matrix reads the vector. -/
theorem castVecCol_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

end Cert.Sage

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.KernelBody.lean ====
/-
  The two kernel bodies at the ideal values: what each stores is the layer of SageLayer.lean applied to the blocks it
  loads.  The first body stores max(layer, 0); the second stores the layer itself into one output and the layer times a
  128×128 projection into the other.  Rounding a value to a narrower format is the identity on the extended reals, a
  product accumulated into the zero splat is the plain sum over the contracted coordinate, the bias is a vector laid
  out as one row and repeated down the rows, and the per-row factor a one-column block spread across the columns.
-/
import proofs.«180879_j60765197304598_2_alg».proof.Proof.Gen.KernelIdeal.Skeleton
import proofs.«180879_j60765197304598_2_alg».proof.Proof.SageLayer
import proofs.«180879_j60765197304598_2_alg».proof.Proof.LibDense

noncomputable section

namespace Cert.KernelIdeal.Body

open Cert.KernelIdeal Cert.KernelIdeal.Gen Idealize.ShloMosaic Idealize.ShloMosaic.ValueIdx Cert.Sage

/-- The printed product record is the plain m×k by k×n one. -/
theorem dot_plain : dot_S5000x128_S128x128_S5000x128_1_0_0_1_n_n
    = (⟨[1], [0], [0], [1], [], [], dot_S5000x128_S128x128_S5000x128_1_0_0_1_n_n_wf⟩ : DotDims S5000x128 S128x128 S5000x128) := rfl

/-- A product of 5000×128 by 128×128 blocks into the zero splat, whatever the operands' formats, at entry (p, q). -/
theorem mm_apply {φ₁ φ₂ : FTy} (A : FVec Ideal S5000x128 φ₁) (B : FVec Ideal S128x128 φ₂) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  rw [dot_plain]
  exact Cert.Dense.matmul_plain_apply _ A B p q

/-- The bias row repeated down the rows, at entry (p, q). -/
theorem bias_apply (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- The first body's stored value is max(layer, 0) of its blocks. -/
theorem pay0_eq (a0 : Vec Ideal S5000x128 .f32) (a1 : Vec Ideal S5000x1 .f32) (x : Vec Ideal S5000x128 .f32)
    (wl wr : Vec Ideal S128x128 .f32) (b : Vec Ideal S128 .f32) :
    k0_pay1 (F := Ideal) a0 a1 x wl wr b = act x a0 a1 wl b wr := by
  funext i
  obtain ⟨p, q, rfl⟩ : ∃ (p : Fin 5000) (q : Fin 128), i = ix2 p q := ⟨i 0, i 1, eq_ix2 i⟩
  unfold k0_pay1
  rw [maximumf_apply, addf_apply, addf_apply, mm_apply, mm_apply, bias_apply]
  simp only [truncf_apply, mulf_apply, shapeCast_self, spreadCol_apply, broadcast_apply, Ideal.ofBits_def]
  rfl

/-- The second body's first stored value is the layer of its blocks. -/
theorem pay1_eq (a0 : Vec Ideal S5000x128 .f32) (a1 : Vec Ideal S5000x1 .f32) (x : Vec Ideal S5000x128 .f32)
    (wl wr : Vec Ideal S128x128 .f32) (b : Vec Ideal S128 .f32) :
    k1_pay1 (F := Ideal) a0 a1 x wl wr b = pre x a0 a1 wl b wr := by
  funext i
  obtain ⟨p, q, rfl⟩ : ∃ (p : Fin 5000) (q : Fin 128), i = ix2 p q := ⟨i 0, i 1, eq_ix2 i⟩
  unfold k1_pay1
  rw [addf_apply, addf_apply, mm_apply, mm_apply, bias_apply]
  simp only [truncf_apply, mulf_apply, shapeCast_self, spreadCol_apply]
  rfl

/-- Its second stored value is the layer times the projection block. -/
theorem pay2_eq (a0 : Vec Ideal S5000x128 .f32) (a1 : Vec Ideal S5000x1 .f32) (x : Vec Ideal S5000x128 .f32)
    (wl wr : Vec Ideal S128x128 .f32) (b : Vec Ideal S128 .f32) (ws : Vec Ideal S128x128 .f32) :
    k1_pay2 (F := Ideal) a0 a1 x wl wr b ws = proj x a0 a1 wl b wr ws := by
  funext i
  obtain ⟨p, q, rfl⟩ : ∃ (p : Fin 5000) (q : Fin 128), i = ix2 p q := ⟨i 0, i 1, eq_ix2 i⟩
  unfold k1_pay2
  rw [mm_apply, pay1_eq]
  simp only [truncf_apply, shapeCast_self]
  rfl

end Cert.KernelIdeal.Body

end
-- ==== Proof.KernelBlocks.lean ====
/-
  From blocks of rows to whole arrays.  Each kernel walks ten blocks of 5000 rows; at block t it reads rows
  5000·t … 5000·t + 4999 of the feature matrix, of the neighbour sums and of the one-column normaliser, and all of the
  weights, and writes those rows of its outputs.  Since an entry of the layer reads one row of its inputs
  (SageLayer.lean), what block t writes back is block t of the layer of the WHOLE arrays, and the ten blocks cover every
  row: after the region each output array is the layer of the arrays the region found on entry.
  Everything is stated at arbitrary entry contents V, so that nothing here looks at how those contents were computed.
-/
import proofs.«180879_j60765197304598_2_alg».proof.Proof.Gen.KernelIdeal.Frame
import proofs.«180879_j60765197304598_2_alg».proof.Proof.KernelBody

set_option maxRecDepth 16384

noncomputable section

namespace Cert.KernelIdeal.Blocks

open Cert.KernelIdeal Cert.KernelIdeal.Gen Cert.KernelIdeal.Body
open Idealize.ShloMosaic Idealize.ShloMosaic.TcCoe Idealize.ShloMosaic.ValueIdx Idealize.SL.Sem Cert.Sage
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The first kernel -/

/-- Its output array after the region: max(layer, 0) of the arrays it was entered with. -/
def G0_6 (c : Dev nD) : S50000x128.Idx → EReal :=
  act (n := 50000) (V c main_arg0) (V c main_v24) (V c main_v12) (V c main_arg2) (V c main_arg3) (V c main_arg4)

/-- The block indices over the grid: the row windows sit at block t, the weights and the bias at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 ∧ t.val < 10 :=
  (by decide +kernel : ∀ t : Fin grid0.N, _)

/-- What block t writes back is block t of the layer of the whole arrays. -/
theorem flushed0_6_eq (c : Dev nD) (t : Fin cfg0.N) :
    (dat0 V c).flushed 6 t = ((cfg0.win 6).blk t).view.read (Elt Ideal) (G0_6 V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  rw [pay0_eq]
  obtain ⟨e00, e01, e10, e11, e20, e21, e30, e31, e40, e50, e51, e60, e61, ht⟩ := idx0 t
  funext y
  have hy0 : (y 0).val < 5000 := (y 0).isLt
  have hy1 : (y 1).val < 128 := (y 1).isLt
  show act (n := 5000) (iblk0 V c 0 t) (iblk0 V c 1 t) (iblk0 V c 2 t) (iblk0 V c 3 t) (iblk0 V c 4 t) (iblk0 V c 5 t) y
    = G0_6 V c (((cfg0.win 6).blk t).view.emb y)
  unfold G0_6
  refine act_rows (n := 5000) (n' := 50000) _ _ _ _ _ _ _ _ _ _ _ _ y (((cfg0.win 6).blk t).view.emb y)
    (⟨(y 0).val, hy0⟩ : Fin 5000) (⟨t.val * 5000 + (y 0).val, by omega⟩ : Fin 50000) (⟨(y 1).val, hy1⟩ : Fin 128)
    rfl rfl ?_ ?_ ?_ ?_ ?_ ?_ ?_ ?_
  · show win0_6.index t (0 : Fin 2) * 5000 + 1 * (y 0).val = t.val * 5000 + (y 0).val
    omega
  · show win0_6.index t (1 : Fin 2) * 128 + 1 * (y 1).val = (y 1).val
    omega
  · intro k
    show V c main_arg0 (((cfg0.win 0).blk t).view.emb (ix2 (⟨(y 0).val, hy0⟩ : Fin 5000) k)) = _
    refine congrArg (V c main_arg0) (funext fun a => Fin.ext ?_)
    match a with
    | ⟨0, _⟩ => show win0_0.index t (0 : Fin 2) * 5000 + 1 * (y 0).val = t.val * 5000 + (y 0).val; omega
    | ⟨1, _⟩ => show win0_0.index t (1 : Fin 2) * 128 + 1 * k.val = k.val; omega
  · intro k
    show V c main_v24 (((cfg0.win 1).blk t).view.emb (ix2 (⟨(y 0).val, hy0⟩ : Fin 5000) k)) = _
    refine congrArg (V c main_v24) (funext fun a => Fin.ext ?_)
    match a with
    | ⟨0, _⟩ => show win0_1.index t (0 : Fin 2) * 5000 + 1 * (y 0).val = t.val * 5000 + (y 0).val; omega
    | ⟨1, _⟩ => show win0_1.index t (1 : Fin 2) * 128 + 1 * k.val = k.val; omega
  · show V c main_v12 (((cfg0.win 2).blk t).view.emb (ix2 (⟨(y 0).val, hy0⟩ : Fin 5000) (0 : Fin 1))) = _
    refine congrArg (V c main_v12) (funext fun a => Fin.ext ?_)
    match a with
    | ⟨0, _⟩ => show win0_2.index t (0 : Fin 2) * 5000 + 1 * (y 0).val = t.val * 5000 + (y 0).val; omega
    | ⟨1, _⟩ => show win0_2.index t (1 : Fin 2) * 1 + 1 * 0 = 0; omega
  · funext j
    show V c main_arg2 (((cfg0.win 3).blk t).view.emb j) = V c main_arg2 j
    refine congrArg (V c main_arg2) (funext fun a => Fin.ext ?_)
    match a with
    | ⟨0, _⟩ => show win0_3.index t (0 : Fin 2) * 128 + 1 * (j 0).val = (j 0).val; omega
    | ⟨1, _⟩ => show win0_3.index t (1 : Fin 2) * 128 + 1 * (j 1).val = (j 1).val; omega
  · funext j
    show V c main_arg3 (((cfg0.win 4).blk t).view.emb j) = V c main_arg3 j
    refine congrArg (V c main_arg3) (funext fun a => Fin.ext ?_)
    match a with
    | ⟨0, _⟩ => show win0_4.index t (0 : Fin 1) * 128 + 1 * (j 0).val = (j 0).val; omega
  · funext j
    show V c main_arg4 (((cfg0.win 5).blk t).view.emb j) = V c main_arg4 j
    refine congrArg (V c main_arg4) (funext fun a => Fin.ext ?_)
    match a with
    | ⟨0, _⟩ => show win0_5.index t (0 : Fin 2) * 128 + 1 * (j 0).val = (j 0).val; omega
    | ⟨1, _⟩ => show win0_5.index t (1 : Fin 2) * 128 + 1 * (j 1).val = (j 1).val; omega

/-- An index of the output array is in block t iff its row is one of block t's 5000 rows. -/
theorem mem_blk0_6 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v25).slice (win0_6.rect t)).set ↔ _
  rw [View.set_slice_whole, Rect.mem_set_unit]
  exact Iff.rfl

/-- Every block index below ten is some grid point's. -/
theorem onto0_6 : ∀ q : Fin 10, ∃ t : Fin cfg0.N, win0_6.index t = ![q.val, 0] :=
  (by decide +kernel : ∀ q : Fin 10, ∃ t : Fin grid0.N, win0_6.index t = ![q.val, 0])

/-- The ten blocks cover the array: row r is in block r / 5000. -/
theorem cover0_6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := onto0_6 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The first kernel's output array after its region. -/
theorem final0_6 (c : Dev nD) : (dat0 V c).arrAt 6 cfg0.N = G0_6 V c :=
  (dat0 V c).arrAt_eq_of_cover 6 (G0_6 V c) (fun t _ => flushed0_6_eq V c t) (cover0_6)

/-! ## The second kernel -/

/-- Its first output array after the region: the layer of the arrays it was entered with. -/
def G1_7 (c : Dev nD) : S50000x128.Idx → EReal :=
  pre (n := 50000) (V c main_v25) (V c main_v37) (V c main_v12) (V c main_arg5) (V c main_arg6) (V c main_arg7)

/-- Its second output array: that layer times the (padded) projection. -/
def G1_8 (c : Dev nD) : S50000x128.Idx → EReal :=
  proj (n := 50000) (V c main_v25) (V c main_v37) (V c main_v12) (V c main_arg5) (V c main_arg6) (V c main_arg7) (V c main_v38)

/-- The block indices over the grid: the row windows sit at block t, the weights and the bias at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 ∧ t.val < 10 :=
  (by decide +kernel : ∀ t : Fin grid1.N, _)

/-- What block t writes back to this output is block t of that function of the whole arrays. -/
theorem flushed1_7_eq (c : Dev nD) (t : Fin cfg1.N) :
    (dat1 V c).flushed 7 t = ((cfg1.win 7).blk t).view.read (Elt Ideal) (G1_7 V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S5000x1) hz2,
    View.ld_unit_zero (S := S128x128) hz2, View.ld_unit_zero (S := S128) hz1]
  rw [pay1_eq]
  obtain ⟨e00, e01, e10, e11, e20, e21, e30, e31, e40, e50, e51, e60, e61, e70, e71, e80, e81, ht⟩ := idx1 t
  funext y
  have hy0 : (y 0).val < 5000 := (y 0).isLt
  have hy1 : (y 1).val < 128 := (y 1).isLt
  show pre (n := 5000) (iblk1 V c 0 t) (iblk1 V c 1 t) (iblk1 V c 2 t) (iblk1 V c 3 t) (iblk1 V c 4 t) (iblk1 V c 5 t) y
    = G1_7 V c (((cfg1.win 7).blk t).view.emb y)
  unfold G1_7
  refine pre_rows' (n := 5000) (n' := 50000) _ _ _ _ _ _ _ _ _ _ _ _ y (((cfg1.win 7).blk t).view.emb y)
    (⟨(y 0).val, hy0⟩ : Fin 5000) (⟨t.val * 5000 + (y 0).val, by omega⟩ : Fin 50000) (⟨(y 1).val, hy1⟩ : Fin 128)
    rfl rfl ?_ ?_ ?_ ?_ ?_ ?_ ?_ ?_
  · show win1_7.index t (0 : Fin 2) * 5000 + 1 * (y 0).val = t.val * 5000 + (y 0).val
    omega
  · show win1_7.index t (1 : Fin 2) * 128 + 1 * (y 1).val = (y 1).val
    omega
  · intro k
    show V c main_v25 (((cfg1.win 0).blk t).view.emb (ix2 (⟨(y 0).val, hy0⟩ : Fin 5000) k)) = _
    refine congrArg (V c main_v25) (funext fun a => Fin.ext ?_)
    match a with
    | ⟨0, _⟩ => show win1_0.index t (0 : Fin 2) * 5000 + 1 * (y 0).val = t.val * 5000 + (y 0).val; omega
    | ⟨1, _⟩ => show win1_0.index t (1 : Fin 2) * 128 + 1 * k.val = k.val; omega
  · intro k
    show V c main_v37 (((cfg1.win 1).blk t).view.emb (ix2 (⟨(y 0).val, hy0⟩ : Fin 5000) k)) = _
    refine congrArg (V c main_v37) (funext fun a => Fin.ext ?_)
    match a with
    | ⟨0, _⟩ => show win1_1.index t (0 : Fin 2) * 5000 + 1 * (y 0).val = t.val * 5000 + (y 0).val; omega
    | ⟨1, _⟩ => show win1_1.index t (1 : Fin 2) * 128 + 1 * k.val = k.val; omega
  · show V c main_v12 (((cfg1.win 2).blk t).view.emb (ix2 (⟨(y 0).val, hy0⟩ : Fin 5000) (0 : Fin 1))) = _
    refine congrArg (V c main_v12) (funext fun a => Fin.ext ?_)
    match a with
    | ⟨0, _⟩ => show win1_2.index t (0 : Fin 2) * 5000 + 1 * (y 0).val = t.val * 5000 + (y 0).val; omega
    | ⟨1, _⟩ => show win1_2.index t (1 : Fin 2) * 1 + 1 * 0 = 0; omega
  · funext j
    show V c main_arg5 (((cfg1.win 3).blk t).view.emb j) = V c main_arg5 j
    refine congrArg (V c main_arg5) (funext fun a => Fin.ext ?_)
    match a with
    | ⟨0, _⟩ => show win1_3.index t (0 : Fin 2) * 128 + 1 * (j 0).val = (j 0).val; omega
    | ⟨1, _⟩ => show win1_3.index t (1 : Fin 2) * 128 + 1 * (j 1).val = (j 1).val; omega
  · funext j
    show V c main_arg6 (((cfg1.win 4).blk t).view.emb j) = V c main_arg6 j
    refine congrArg (V c main_arg6) (funext fun a => Fin.ext ?_)
    match a with
    | ⟨0, _⟩ => show win1_4.index t (0 : Fin 1) * 128 + 1 * (j 0).val = (j 0).val; omega
  · funext j
    show V c main_arg7 (((cfg1.win 5).blk t).view.emb j) = V c main_arg7 j
    refine congrArg (V c main_arg7) (funext fun a => Fin.ext ?_)
    match a with
    | ⟨0, _⟩ => show win1_5.index t (0 : Fin 2) * 128 + 1 * (j 0).val = (j 0).val; omega
    | ⟨1, _⟩ => show win1_5.index t (1 : Fin 2) * 128 + 1 * (j 1).val = (j 1).val; omega

/-- An index of this output array is in block t iff its row is one of block t's 5000 rows. -/
theorem mem_blk1_7 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v39_0).slice (win1_7.rect t)).set ↔ _
  rw [View.set_slice_whole, Rect.mem_set_unit]
  exact Iff.rfl

theorem onto1_7 : ∀ q : Fin 10, ∃ t : Fin cfg1.N, win1_7.index t = ![q.val, 0] :=
  (by decide +kernel : ∀ q : Fin 10, ∃ t : Fin grid1.N, win1_7.index t = ![q.val, 0])

/-- The ten blocks cover this output array. -/
theorem cover1_7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, ht⟩ := onto1_7 ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk1_7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- This output array after the second kernel's region. -/
theorem final1_7 (c : Dev nD) : (dat1 V c).arrAt 7 cfg1.N = G1_7 V c :=
  (dat1 V c).arrAt_eq_of_cover 7 (G1_7 V c) (fun t _ => flushed1_7_eq V c t) (cover1_7)

/-- What block t writes back to this output is block t of that function of the whole arrays. -/
theorem flushed1_8_eq (c : Dev nD) (t : Fin cfg1.N) :
    (dat1 V c).flushed 8 t = ((cfg1.win 8).blk t).view.read (Elt Ideal) (G1_8 V c) := by
  show (cfg1.win 8).cut (grid1.coords t) ((dat1 V c).after 8 t) = _
  rw [after1_8]
  unfold out1_8
  rw [View.canon_unit_zero hz2]
  simp only [View.ld_unit_zero (S := S5000x128) hz2, View.ld_unit_zero (S := S5000x1) hz2,
    View.ld_unit_zero (S := S128x128) hz2, View.ld_unit_zero (S := S128) hz1]
  rw [pay2_eq]
  obtain ⟨e00, e01, e10, e11, e20, e21, e30, e31, e40, e50, e51, e60, e61, e70, e71, e80, e81, ht⟩ := idx1 t
  funext y
  have hy0 : (y 0).val < 5000 := (y 0).isLt
  have hy1 : (y 1).val < 128 := (y 1).isLt
  show proj (n := 5000) (iblk1 V c 0 t) (iblk1 V c 1 t) (iblk1 V c 2 t) (iblk1 V c 3 t) (iblk1 V c 4 t) (iblk1 V c 5 t) (iblk1 V c 6 t) y
    = G1_8 V c (((cfg1.win 8).blk t).view.emb y)
  unfold G1_8
  refine proj_rows (n := 5000) (n' := 50000) _ _ _ _ _ _ _ _ _ _ _ _ _ _ y (((cfg1.win 8).blk t).view.emb y)
    (⟨(y 0).val, hy0⟩ : Fin 5000) (⟨t.val * 5000 + (y 0).val, by omega⟩ : Fin 50000) (⟨(y 1).val, hy1⟩ : Fin 128)
    rfl rfl ?_ ?_ ?_ ?_ ?_ ?_ ?_ ?_ ?_
  · show win1_8.index t (0 : Fin 2) * 5000 + 1 * (y 0).val = t.val * 5000 + (y 0).val
    omega
  · show win1_8.index t (1 : Fin 2) * 128 + 1 * (y 1).val = (y 1).val
    omega
  · intro k
    show V c main_v25 (((cfg1.win 0).blk t).view.emb (ix2 (⟨(y 0).val, hy0⟩ : Fin 5000) k)) = _
    refine congrArg (V c main_v25) (funext fun a => Fin.ext ?_)
    match a with
    | ⟨0, _⟩ => show win1_0.index t (0 : Fin 2) * 5000 + 1 * (y 0).val = t.val * 5000 + (y 0).val; omega
    | ⟨1, _⟩ => show win1_0.index t (1 : Fin 2) * 128 + 1 * k.val = k.val; omega
  · intro k
    show V c main_v37 (((cfg1.win 1).blk t).view.emb (ix2 (⟨(y 0).val, hy0⟩ : Fin 5000) k)) = _
    refine congrArg (V c main_v37) (funext fun a => Fin.ext ?_)
    match a with
    | ⟨0, _⟩ => show win1_1.index t (0 : Fin 2) * 5000 + 1 * (y 0).val = t.val * 5000 + (y 0).val; omega
    | ⟨1, _⟩ => show win1_1.index t (1 : Fin 2) * 128 + 1 * k.val = k.val; omega
  · show V c main_v12 (((cfg1.win 2).blk t).view.emb (ix2 (⟨(y 0).val, hy0⟩ : Fin 5000) (0 : Fin 1))) = _
    refine congrArg (V c main_v12) (funext fun a => Fin.ext ?_)
    match a with
    | ⟨0, _⟩ => show win1_2.index t (0 : Fin 2) * 5000 + 1 * (y 0).val = t.val * 5000 + (y 0).val; omega
    | ⟨1, _⟩ => show win1_2.index t (1 : Fin 2) * 1 + 1 * 0 = 0; omega
  · funext j
    show V c main_arg5 (((cfg1.win 3).blk t).view.emb j) = V c main_arg5 j
    refine congrArg (V c main_arg5) (funext fun a => Fin.ext ?_)
    match a with
    | ⟨0, _⟩ => show win1_3.index t (0 : Fin 2) * 128 + 1 * (j 0).val = (j 0).val; omega
    | ⟨1, _⟩ => show win1_3.index t (1 : Fin 2) * 128 + 1 * (j 1).val = (j 1).val; omega
  · funext j
    show V c main_arg6 (((cfg1.win 4).blk t).view.emb j) = V c main_arg6 j
    refine congrArg (V c main_arg6) (funext fun a => Fin.ext ?_)
    match a with
    | ⟨0, _⟩ => show win1_4.index t (0 : Fin 1) * 128 + 1 * (j 0).val = (j 0).val; omega
  · funext j
    show V c main_arg7 (((cfg1.win 5).blk t).view.emb j) = V c main_arg7 j
    refine congrArg (V c main_arg7) (funext fun a => Fin.ext ?_)
    match a with
    | ⟨0, _⟩ => show win1_5.index t (0 : Fin 2) * 128 + 1 * (j 0).val = (j 0).val; omega
    | ⟨1, _⟩ => show win1_5.index t (1 : Fin 2) * 128 + 1 * (j 1).val = (j 1).val; omega
  · funext j
    show V c main_v38 (((cfg1.win 6).blk t).view.emb j) = V c main_v38 j
    refine congrArg (V c main_v38) (funext fun a => Fin.ext ?_)
    match a with
    | ⟨0, _⟩ => show win1_6.index t (0 : Fin 2) * 128 + 1 * (j 0).val = (j 0).val; omega
    | ⟨1, _⟩ => show win1_6.index t (1 : Fin 2) * 128 + 1 * (j 1).val = (j 1).val; omega

/-- An index of this output array is in block t iff its row is one of block t's 5000 rows. -/
theorem mem_blk1_8 (t : Fin cfg1.N) (i : S50000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v39_1).slice (win1_8.rect t)).set ↔ _
  rw [View.set_slice_whole, Rect.mem_set_unit]
  exact Iff.rfl

theorem onto1_8 : ∀ q : Fin 10, ∃ t : Fin cfg1.N, win1_8.index t = ![q.val, 0] :=
  (by decide +kernel : ∀ q : Fin 10, ∃ t : Fin grid1.N, win1_8.index t = ![q.val, 0])

/-- The ten blocks cover this output array. -/
theorem cover1_8 (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  obtain ⟨t, ht⟩ := onto1_8 ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_blk1_8]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 128 ≤ (i 1).val ∧ (i 1).val < win1_8.index t (1 : Fin 2) * 128 + 128; omega

/-- This output array after the second kernel's region. -/
theorem final1_8 (c : Dev nD) : (dat1 V c).arrAt 8 cfg1.N = G1_8 V c :=
  (dat1 V c).arrAt_eq_of_cover 8 (G1_8 V c) (fun t _ => flushed1_8_eq V c t) (cover1_8)

end Cert.KernelIdeal.Blocks

end
-- ==== Proof.KernelHost.lean ====
/-
  The host operations of the kernel program, stretch by stretch, as functions of the buffers each stretch starts from.
  Before the first kernel: the two index rows src and dst of the edge list, the in-degree count c (ones added at dst
  into zeros), the normaliser 1 / max(c, 1) as a one-column matrix, and the neighbour sums of x (rows of x gathered
  at src, wrapped into range, added at dst into zeros).  Between the kernels: the neighbour sums of the first kernel's
  output, by the same gather and scatter over the same src and dst, and the projection weights with 64 columns of
  zeros appended.  After the second kernel: the first 64 columns of its projected output.
  Each statement holds from ANY starting contents, so it is proved without looking at where those contents come from.
-/
import proofs.«180879_j60765197304598_2_alg».proof.Proof.Gen.KernelIdeal.Launch
import Idealize.ShloMosaic.Lib.StableHlo.Run
import Idealize.ShloMosaic.Lib.Pipeline.Value
import Idealize.ShloMosaic.Lib.ValueIdx
import proofs.«180879_j60765197304598_2_alg».proof.Proof.SageLayer

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- Row 0 of the edge list: the source node of each edge. -/
def srcOf (e : (⟨S2x640000, .i32⟩ : BufTy).Contents (Elt F)) : (⟨S640000, .i32⟩ : BufTy).Contents (Elt F) :=
  shapeCast _ (extractStridedSlice S1x640000 ![0, 0] e slices_S2x640000_S1x640000_0_0) shapeCasts_S1x640000_S640000

/-- Row 1 of the edge list: the target node of each edge. -/
def dstOf (e : (⟨S2x640000, .i32⟩ : BufTy).Contents (Elt F)) : (⟨S640000, .i32⟩ : BufTy).Contents (Elt F) :=
  shapeCast _ (extractStridedSlice S1x640000 ![1, 0] e slices_S2x640000_S1x640000_1_0) shapeCasts_S1x640000_S640000

/-- The in-degree count: a one added at each edge's target into zeros. -/
def cntOf (d : (⟨S640000, .i32⟩ : BufTy).Contents (Elt F)) : (⟨S50000, .f32⟩ : BufTy).Contents (Elt F) :=
  Host.scatterAdd scatter_S50000_S640000x1_S640000_n_0_0_1
    (broadcastInDim S50000 ![] bcast_S_S50000 (constant S_ .f32 0x00000000#32))
    (broadcastInDim S640000x1 ![0] bcast_S640000_S640000x1_0 d)
    (broadcastInDim S640000 ![] bcast_S_S640000 (constant S_ .f32 0x3F800000#32))

/-- 1 / max(count, 1), as a one-column matrix. -/
def invOf (d : (⟨S640000, .i32⟩ : BufTy).Contents (Elt F)) : (⟨S50000x1, .f32⟩ : BufTy).Contents (Elt F) :=
  shapeCast _ (Host.divf (broadcastInDim S50000 ![] bcast_S_S50000 (constant S_ .f32 0x3F800000#32))
    (maximumf (cntOf d) (broadcastInDim S50000 ![] bcast_S_S50000 (constant S_ .f32 0x3F800000#32)))) shapeCasts_S50000_S50000x1

/-- The neighbour sums of a feature matrix: its rows gathered at the sources (negative indices wrapped by 50000),
    added at the targets into zeros. -/
def aggOf (x : (⟨S50000x128, .f32⟩ : BufTy).Contents (Elt F)) (s d : (⟨S640000, .i32⟩ : BufTy).Contents (Elt F)) :
    (⟨S50000x128, .f32⟩ : BufTy).Contents (Elt F) :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 d)
    (extf .f32 (Host.gather gather_S50000x128_S640000x1_S640000x128_1_0_n_n_0_1_1128 (truncf .bf16 x bitsLt_bf16_f32)
      (broadcastInDim S640000x1 ![0] bcast_S640000_S640000x1_0
        (select (cmpi .slt s (broadcastInDim S640000 ![] bcast_S_S640000 (constantI S_ 32 0#32)))
          (addi s (broadcastInDim S640000 ![] bcast_S_S640000 (constantI S_ 32 50000#32))) s))) bitsLt_bf16_f32)

/-- The 128×64 projection weights with 64 columns of (the float of the integer) zero appended. -/
def padOf (ws : (⟨S128x64, .f32⟩ : BufTy).Contents (Elt F)) : (⟨S128x128, .f32⟩ : BufTy).Contents (Elt F) :=
  pad S128x128 ![0, 0] ![0, 64] ![0, 0] ws (sitofp .f32 (constantI S_ 32 0#32) : (⟨S_, .f32⟩ : BufTy).Contents (Elt F))
    pads_S128x64_S128x128_000_0640 h_S_

/-! ## The program's results as functions of its arguments -/

section Results
open Cert.Sage Idealize.ShloMosaic.ValueIdx

variable (x : (⟨S50000x128, .f32⟩ : BufTy).Contents (Elt Ideal)) (e : (⟨S2x640000, .i32⟩ : BufTy).Contents (Elt Ideal))
  (wl1 : (⟨S128x128, .f32⟩ : BufTy).Contents (Elt Ideal)) (b1 : (⟨S128, .f32⟩ : BufTy).Contents (Elt Ideal))
  (wr1 wl2 : (⟨S128x128, .f32⟩ : BufTy).Contents (Elt Ideal)) (b2 : (⟨S128, .f32⟩ : BufTy).Contents (Elt Ideal))
  (wr2 : (⟨S128x128, .f32⟩ : BufTy).Contents (Elt Ideal)) (ws : (⟨S128x64, .f32⟩ : BufTy).Contents (Elt Ideal))

/-- The first kernel's output: max(layer₁, 0). -/
def h1 : S50000x128.Idx → EReal :=
  act (n := 50000) x (aggOf (F := Ideal) x (srcOf e) (dstOf e)) (invOf (F := Ideal) (dstOf e)) wl1 b1 wr1

/-- The second kernel's first output: layer₂ of the first kernel's output. -/
def h2 : S50000x128.Idx → EReal :=
  pre (n := 50000) (h1 x e wl1 b1 wr1) (aggOf (F := Ideal) (h1 x e wl1 b1 wr1) (srcOf e) (dstOf e)) (invOf (F := Ideal) (dstOf e)) wl2 b2 wr2

/-- The second kernel's second output: that layer times the padded projection. -/
def p2 : S50000x128.Idx → EReal :=
  proj (n := 50000) (h1 x e wl1 b1 wr1) (aggOf (F := Ideal) (h1 x e wl1 b1 wr1) (srcOf e) (dstOf e)) (invOf (F := Ideal) (dstOf e)) wl2 b2 wr2
    (padOf (F := Ideal) ws)

/-- The normaliser column holds 1 / max(count, 1). -/
theorem inv_col (d : (⟨S640000, .i32⟩ : BufTy).Contents (Elt Ideal)) (r : Fin 50000) :
    invOf (F := Ideal) d (ix2 r (0 : Fin 1))
      = Ideal.div (Ideal.ofBits .f32 0x3F800000#32) (max (cntOf (F := Ideal) d (ix1 r)) (Ideal.ofBits .f32 0x3F800000#32)) := by
  have hd : ∀ (a b : FVec Ideal S50000 .f32) (i : S50000.Idx),
      Host.divf (F := Ideal) a b i = Ideal.div (a i) (b i) := fun _ _ _ => rfl
  have hb : ∀ (v : FVec Ideal S_ .f32) (i : S50000.Idx),
      broadcastInDim S50000 ![] bcast_S_S50000 v i = v ix0 :=
    fun v i => broadcastInDim_apply _ bcast_S_S50000 v i ix0 fun ax => ax.elim0
  unfold invOf
  rw [castVecCol_apply, hd, maximumf_apply, hb, constant_apply]

end Results

variable (Wp : Valuation τ sig (Elt F))

/-! ## The stretch before the first kernel -/

theorem s0_v1 : StableHlo.after (hostOps0 (F := F)) Wp (Proc.devRef .tc main_v1) = srcOf (Wp (Proc.devRef .tc main_arg1)) := by
  after_results_simp; rfl
theorem s0_v3 : StableHlo.after (hostOps0 (F := F)) Wp (Proc.devRef .tc main_v3) = dstOf (Wp (Proc.devRef .tc main_arg1)) := by
  after_results_simp; rfl
theorem s0_v12 : StableHlo.after (hostOps0 (F := F)) Wp (Proc.devRef .tc main_v12)
    = invOf (dstOf (Wp (Proc.devRef .tc main_arg1))) := by
  after_results_simp; rfl
theorem s0_v24 : StableHlo.after (hostOps0 (F := F)) Wp (Proc.devRef .tc main_v24)
    = aggOf (Wp (Proc.devRef .tc main_arg0)) (srcOf (Wp (Proc.devRef .tc main_arg1))) (dstOf (Wp (Proc.devRef .tc main_arg1))) := by
  after_results_simp; rfl
theorem s0_arg0 : StableHlo.after (hostOps0 (F := F)) Wp (Proc.devRef .tc main_arg0) = Wp (Proc.devRef .tc main_arg0) := by
  after_results_simp
theorem s0_arg2 : StableHlo.after (hostOps0 (F := F)) Wp (Proc.devRef .tc main_arg2) = Wp (Proc.devRef .tc main_arg2) := by
  after_results_simp
theorem s0_arg3 : StableHlo.after (hostOps0 (F := F)) Wp (Proc.devRef .tc main_arg3) = Wp (Proc.devRef .tc main_arg3) := by
  after_results_simp
theorem s0_arg4 : StableHlo.after (hostOps0 (F := F)) Wp (Proc.devRef .tc main_arg4) = Wp (Proc.devRef .tc main_arg4) := by
  after_results_simp
theorem s0_arg5 : StableHlo.after (hostOps0 (F := F)) Wp (Proc.devRef .tc main_arg5) = Wp (Proc.devRef .tc main_arg5) := by
  after_results_simp
theorem s0_arg6 : StableHlo.after (hostOps0 (F := F)) Wp (Proc.devRef .tc main_arg6) = Wp (Proc.devRef .tc main_arg6) := by
  after_results_simp
theorem s0_arg7 : StableHlo.after (hostOps0 (F := F)) Wp (Proc.devRef .tc main_arg7) = Wp (Proc.devRef .tc main_arg7) := by
  after_results_simp
theorem s0_arg8 : StableHlo.after (hostOps0 (F := F)) Wp (Proc.devRef .tc main_arg8) = Wp (Proc.devRef .tc main_arg8) := by
  after_results_simp

/-! ## The stretch between the kernels -/

theorem s1_v37 : StableHlo.after (hostOps1 (F := F)) Wp (Proc.devRef .tc main_v37)
    = aggOf (Wp (Proc.devRef .tc main_v25)) (Wp (Proc.devRef .tc main_v1)) (Wp (Proc.devRef .tc main_v3)) := by
  after_results_simp; rfl
theorem s1_c8 : StableHlo.after (hostOps1 (F := F)) Wp (Proc.devRef .tc main_c_8) = constantI S_ 32 0#32 := by
  after_results_simp
theorem s1_v25 : StableHlo.after (hostOps1 (F := F)) Wp (Proc.devRef .tc main_v25) = Wp (Proc.devRef .tc main_v25) := by
  after_results_simp
theorem s1_v12 : StableHlo.after (hostOps1 (F := F)) Wp (Proc.devRef .tc main_v12) = Wp (Proc.devRef .tc main_v12) := by
  after_results_simp
theorem s1_arg5 : StableHlo.after (hostOps1 (F := F)) Wp (Proc.devRef .tc main_arg5) = Wp (Proc.devRef .tc main_arg5) := by
  after_results_simp
theorem s1_arg6 : StableHlo.after (hostOps1 (F := F)) Wp (Proc.devRef .tc main_arg6) = Wp (Proc.devRef .tc main_arg6) := by
  after_results_simp
theorem s1_arg7 : StableHlo.after (hostOps1 (F := F)) Wp (Proc.devRef .tc main_arg7) = Wp (Proc.devRef .tc main_arg7) := by
  after_results_simp
theorem s1_arg8 : StableHlo.after (hostOps1 (F := F)) Wp (Proc.devRef .tc main_arg8) = Wp (Proc.devRef .tc main_arg8) := by
  after_results_simp

/-! ## The padding of the projection weights -/

theorem s11_v38 : StableHlo.after (hostOps1_1 (F := F)) Wp (Proc.devRef .tc main_v38)
    = pad S128x128 ![0, 0] ![0, 64] ![0, 0] (Wp (Proc.devRef .tc main_arg8))
        (sitofp .f32 (Wp (Proc.devRef .tc main_c_8)) : (⟨S_, .f32⟩ : BufTy).Contents (Elt F)) pads_S128x64_S128x128_000_0640 h_S_ := by
  after_results_simp; rfl
theorem s11_v25 : StableHlo.after (hostOps1_1 (F := F)) Wp (Proc.devRef .tc main_v25) = Wp (Proc.devRef .tc main_v25) := by
  after_results_simp
theorem s11_v37 : StableHlo.after (hostOps1_1 (F := F)) Wp (Proc.devRef .tc main_v37) = Wp (Proc.devRef .tc main_v37) := by
  after_results_simp
theorem s11_v12 : StableHlo.after (hostOps1_1 (F := F)) Wp (Proc.devRef .tc main_v12) = Wp (Proc.devRef .tc main_v12) := by
  after_results_simp
theorem s11_arg5 : StableHlo.after (hostOps1_1 (F := F)) Wp (Proc.devRef .tc main_arg5) = Wp (Proc.devRef .tc main_arg5) := by
  after_results_simp
theorem s11_arg6 : StableHlo.after (hostOps1_1 (F := F)) Wp (Proc.devRef .tc main_arg6) = Wp (Proc.devRef .tc main_arg6) := by
  after_results_simp
theorem s11_arg7 : StableHlo.after (hostOps1_1 (F := F)) Wp (Proc.devRef .tc main_arg7) = Wp (Proc.devRef .tc main_arg7) := by
  after_results_simp

/-! ## The stretch after the second kernel -/

theorem s2_v40 : StableHlo.after (hostOps2 (F := F)) Wp (Proc.devRef .tc main_v40)
    = extractStridedSlice S50000x64 ![0, 0] (Wp (Proc.devRef .tc main_v39_1)) slices_S50000x128_S50000x64_0_0 := by
  after_results_simp
theorem s2_v39_0 : StableHlo.after (hostOps2 (F := F)) Wp (Proc.devRef .tc main_v39_0) = Wp (Proc.devRef .tc main_v39_0) := by
  after_results_simp

end Cert.KernelIdeal.HostSide

end
-- ==== Proof.KernelRun.lean ====
/-
  The kernel program's run with its two results named.  The program is two kernel regions among four stretches of host
  operations; every weakly fair execution walks them in order, and the buffer contents at the last boundary are the
  fold W6 of those steps over the launch memory.  The frame proof reads the argument arrays off that last boundary;
  reading the two result buffers off it in the same way gives the run that the value proof needs: the results are W6 at
  their buffers, the arguments are unchanged.
-/
import proofs.«180879_j60765197304598_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the two results at the last boundary's contents and the
    arguments as launched. -/
theorem run_named : θ_run defs (onTc (τ := τ) (main (F := F))) ⟨m, fun _ => 0, ρ⟩ (fun r => ∀ c : Dev nD,
      r.2.mem ((c.tc : Thread nD τ).loc main_v40) = W6 m ρ c (Proc.devRef .tc main_v40)
      ∧ r.2.mem ((c.tc : Thread nD τ).loc main_v39_0) = W6 m ρ c (Proc.devRef .tc main_v39_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v40 (by decide)),
       h c _ (mem_uc main_v39_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Run

end
-- ==== Proof.KernelValue.lean ====
/-
  The kernel program's two results as functions of its arguments.  Walking the boundaries of the run in order:
  before the first kernel the host has computed src, dst, the normaliser column and the neighbour sums of x; the first
  kernel leaves h = max(layer₁, 0) of those; between the kernels the host computes the neighbour sums of h over the
  same src and dst and pads the projection weights; the second kernel leaves h₂ = layer₂ of those and h₂ times the
  padded projection; the last host operation keeps the first 64 columns of that product.  A buffer that a stretch or a
  region does not write keeps its contents, which is how src, dst, the normaliser and the weights reach the places
  they are read at.
-/
import proofs.«180879_j60765197304598_2_alg».proof.Proof.Gen.KernelIdeal.Frame
import proofs.«180879_j60765197304598_2_alg».proof.Proof.KernelBlocks
import proofs.«180879_j60765197304598_2_alg».proof.Proof.KernelHost
import proofs.«180879_j60765197304598_2_alg».proof.Proof.KernelRun

set_option maxRecDepth 16384

noncomputable section

namespace Cert.KernelIdeal.Whole

open Cert.KernelIdeal Cert.KernelIdeal.Gen Cert.KernelIdeal.Blocks Cert.KernelIdeal.HostSide
open Idealize.ShloMosaic Idealize.ShloMosaic.TcCoe Idealize.ShloMosaic.ValueIdx Idealize.SL.Sem Cert.Sage
open Idealize.ShloMosaic.Pipeline (Dat Cfg Window)

variable (m : (ℓ : Loc nD τ sig) → Buf (Elt Ideal) ℓ) (ρ : Dev nD → PrngReg) (c : Dev nD)

/-- The first kernel's output as a function of the launch arrays. -/
def H1 : S50000x128.Idx → EReal :=
  h1 (m ((c : Thread nD τ).loc main_arg0)) (m ((c : Thread nD τ).loc main_arg1))
    (m ((c : Thread nD τ).loc main_arg2)) (m ((c : Thread nD τ).loc main_arg3)) (m ((c : Thread nD τ).loc main_arg4))

/-- The second kernel's first output. -/
def H2 : S50000x128.Idx → EReal :=
  h2 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The second kernel's second output. -/
def P2 : S50000x128.Idx → EReal :=
  p2 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-! ## On entry to the first kernel -/

theorem v1_arg0 : V1 m ρ c main_arg0 = m ((c : Thread nD τ).loc main_arg0) := s0_arg0 (W0 m ρ c)
theorem v1_arg2 : V1 m ρ c main_arg2 = m ((c : Thread nD τ).loc main_arg2) := s0_arg2 (W0 m ρ c)
theorem v1_arg3 : V1 m ρ c main_arg3 = m ((c : Thread nD τ).loc main_arg3) := s0_arg3 (W0 m ρ c)
theorem v1_arg4 : V1 m ρ c main_arg4 = m ((c : Thread nD τ).loc main_arg4) := s0_arg4 (W0 m ρ c)
theorem v1_v24 : V1 m ρ c main_v24 = aggOf (F := Ideal) (m ((c : Thread nD τ).loc main_arg0))
    (srcOf (m ((c : Thread nD τ).loc main_arg1))) (dstOf (m ((c : Thread nD τ).loc main_arg1))) := s0_v24 (W0 m ρ c)
theorem v1_v12 : V1 m ρ c main_v12 = invOf (F := Ideal) (dstOf (m ((c : Thread nD τ).loc main_arg1))) := s0_v12 (W0 m ρ c)

/-! ## After the first kernel -/

theorem w2_v25 : W2 m ρ c (Proc.devRef .tc main_v25) = H1 m c :=
  (W2_arr m ρ c 6).trans ((final0_6 (V1 m ρ) c).trans (by
    unfold G0_6
    rw [v1_arg0, v1_arg2, v1_arg3, v1_arg4, v1_v24, v1_v12]
    rfl))

theorem w2_v1 : W2 m ρ c (Proc.devRef .tc main_v1) = srcOf (m ((c : Thread nD τ).loc main_arg1)) :=
  (W2_of_ne m ρ c main_v1 (by decide)).trans (s0_v1 (W0 m ρ c))
theorem w2_v3 : W2 m ρ c (Proc.devRef .tc main_v3) = dstOf (m ((c : Thread nD τ).loc main_arg1)) :=
  (W2_of_ne m ρ c main_v3 (by decide)).trans (s0_v3 (W0 m ρ c))
theorem w2_v12 : W2 m ρ c (Proc.devRef .tc main_v12) = invOf (F := Ideal) (dstOf (m ((c : Thread nD τ).loc main_arg1))) :=
  (W2_arr m ρ c 2).trans ((((dat0 (V1 m ρ) c).arrAt_in 2 rfl _).trans (A_eq0 (V1 m ρ) c 2)).trans (v1_v12 m ρ c))
theorem w2_arg5 : W2 m ρ c (Proc.devRef .tc main_arg5) = m ((c : Thread nD τ).loc main_arg5) :=
  (W2_of_ne m ρ c main_arg5 (by decide)).trans (s0_arg5 (W0 m ρ c))
theorem w2_arg6 : W2 m ρ c (Proc.devRef .tc main_arg6) = m ((c : Thread nD τ).loc main_arg6) :=
  (W2_of_ne m ρ c main_arg6 (by decide)).trans (s0_arg6 (W0 m ρ c))
theorem w2_arg7 : W2 m ρ c (Proc.devRef .tc main_arg7) = m ((c : Thread nD τ).loc main_arg7) :=
  (W2_of_ne m ρ c main_arg7 (by decide)).trans (s0_arg7 (W0 m ρ c))
theorem w2_arg8 : W2 m ρ c (Proc.devRef .tc main_arg8) = m ((c : Thread nD τ).loc main_arg8) :=
  (W2_of_ne m ρ c main_arg8 (by decide)).trans (s0_arg8 (W0 m ρ c))

/-! ## On entry to the second kernel -/

theorem v4_v25 : V4 m ρ c main_v25 = H1 m c :=
  (s11_v25 (W3 m ρ c)).trans ((s1_v25 (W2 m ρ c)).trans (w2_v25 m ρ c))
theorem v4_v37 : V4 m ρ c main_v37 = aggOf (F := Ideal) (H1 m c)
    (srcOf (m ((c : Thread nD τ).loc main_arg1))) (dstOf (m ((c : Thread nD τ).loc main_arg1))) :=
  (s11_v37 (W3 m ρ c)).trans ((s1_v37 (W2 m ρ c)).trans (by rw [w2_v25, w2_v1, w2_v3]))
theorem v4_v12 : V4 m ρ c main_v12 = invOf (F := Ideal) (dstOf (m ((c : Thread nD τ).loc main_arg1))) :=
  (s11_v12 (W3 m ρ c)).trans ((s1_v12 (W2 m ρ c)).trans (w2_v12 m ρ c))
theorem v4_arg5 : V4 m ρ c main_arg5 = m ((c : Thread nD τ).loc main_arg5) :=
  (s11_arg5 (W3 m ρ c)).trans ((s1_arg5 (W2 m ρ c)).trans (w2_arg5 m ρ c))
theorem v4_arg6 : V4 m ρ c main_arg6 = m ((c : Thread nD τ).loc main_arg6) :=
  (s11_arg6 (W3 m ρ c)).trans ((s1_arg6 (W2 m ρ c)).trans (w2_arg6 m ρ c))
theorem v4_arg7 : V4 m ρ c main_arg7 = m ((c : Thread nD τ).loc main_arg7) :=
  (s11_arg7 (W3 m ρ c)).trans ((s1_arg7 (W2 m ρ c)).trans (w2_arg7 m ρ c))
theorem v4_v38 : V4 m ρ c main_v38 = padOf (F := Ideal) (m ((c : Thread nD τ).loc main_arg8)) :=
  (s11_v38 (W3 m ρ c)).trans (by
    rw [show W3 m ρ c (Proc.devRef .tc main_arg8) = m ((c : Thread nD τ).loc main_arg8) from
        (s1_arg8 (W2 m ρ c)).trans (w2_arg8 m ρ c),
      show W3 m ρ c (Proc.devRef .tc main_c_8) = constantI S_ 32 0#32 from s1_c8 (W2 m ρ c)]
    rfl)

/-! ## After the second kernel, and at the end -/

theorem w5_v39_0 : W5 m ρ c (Proc.devRef .tc main_v39_0) = H2 m c :=
  (W5_arr m ρ c 7).trans ((final1_7 (V4 m ρ) c).trans (by
    unfold G1_7
    rw [v4_v25, v4_v37, v4_v12, v4_arg5, v4_arg6, v4_arg7]
    rfl))

theorem w5_v39_1 : W5 m ρ c (Proc.devRef .tc main_v39_1) = P2 m c :=
  (W5_arr m ρ c 8).trans ((final1_8 (V4 m ρ) c).trans (by
    unfold G1_8
    rw [v4_v25, v4_v37, v4_v12, v4_arg5, v4_arg6, v4_arg7, v4_v38]
    rfl))

theorem w6_v39_0 : W6 m ρ c (Proc.devRef .tc main_v39_0) = H2 m c :=
  (s2_v39_0 (W5 m ρ c)).trans (w5_v39_0 m ρ c)

theorem w6_v40 : W6 m ρ c (Proc.devRef .tc main_v40)
    = extractStridedSlice S50000x64 ![0, 0] (P2 m c) slices_S50000x128_S50000x64_0_0 :=
  (s2_v40 (W5 m ρ c)).trans (by rw [w5_v39_1])

/-- The kernel program's run: its results are those functions of the launch arrays, its arguments unchanged. -/
theorem run : θ_run defs (onTc (τ := τ) (main (F := Ideal))) ⟨m, fun _ => 0, ρ⟩ (fun r => ∀ c : Dev nD,
      r.2.mem ((c.tc : Thread nD τ).loc main_v40)
        = extractStridedSlice S50000x64 ![0, 0] (P2 m c) slices_S50000x128_S50000x64_0_0
      ∧ r.2.mem ((c.tc : Thread nD τ).loc main_v39_0) = H2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (w6_v40 m ρ c), (h c).2.1.trans (w6_v39_0 m ρ c), (h c).2.2⟩)
    (Cert.KernelIdeal.Run.run_named m ρ)

end Cert.KernelIdeal.Whole

end
-- ==== Proof.RefLayer.lean ====
/-
  The reference program, layer by layer.  Each of its two layers is the same chain of host operations: the neighbour
  sums divided entry by entry by max(count, 1) spread across the row, a product with the left weights, the bias row
  added, and the product of the features with the right weights added.  At entry (r, q) that chain is
  (Σ_k (A(r,k) / max(c_r, 1))·Wl(k,q) + b(q)) + Σ_k X(r,k)·Wr(k,q): the layer of SageLayer.lean in its quotient form.
  The neighbour sums and the count are the same gather and scatter in both layers, over the same edge list.
-/
import proofs.«180879_j60765197304598_2_alg».proof.Proof.Gen.ReferenceIdeal.Read
import proofs.«180879_j60765197304598_2_alg».proof.Proof.SageLayer
import proofs.«180879_j60765197304598_2_alg».proof.Proof.LibDense

set_option maxRecDepth 16384

noncomputable section

namespace Cert.ReferenceIdeal.Layer

open Cert.ReferenceIdeal Cert.ReferenceIdeal.Gen Cert.ReferenceIdeal.Read
open Idealize.ShloMosaic Idealize.ShloMosaic.ValueIdx Cert.Sage

/-- One layer of the reference, from the neighbour sums A, the count C, the features X and the weights. -/
def refLayer (A : FVec Ideal S50000x128 .f32) (C : FVec Ideal S50000 .f32) (X : FVec Ideal S50000x128 .f32)
    (Wl : FVec Ideal S128x128 .f32) (b : FVec Ideal S128 .f32) (Wr : FVec Ideal S128x128 .f32) : FVec Ideal S50000x128 .f32 :=
  addf (F := Ideal) (addf (F := Ideal) (Host.dotGeneral (F := Ideal) dot_S50000x128_S128x128_S50000x128_1_0_0_1_n_n none
      (Host.divf (F := Ideal) A (broadcastInDim S50000x128 ![0, 1] bcast_S50000x1_S50000x128_0_1
        (broadcastInDim S50000x1 ![0] bcast_S50000_S50000x1_0
          (maximumf (F := Ideal) C (broadcastInDim S50000 ![] bcast_S_S50000 (constant (F := Ideal) S_ .f32 0x3F800000#32)))))) Wl)
      (broadcastInDim S50000x128 ![0, 1] bcast_S1x128_S50000x128_0_1 (broadcastInDim S1x128 ![1] bcast_S128_S1x128_1 b)))
    (Host.dotGeneral (F := Ideal) dot_S50000x128_S128x128_S50000x128_1_0_0_1_n_n none X Wr)

/-- The neighbour sums of a feature matrix over the edge list. -/
def refAgg (y : FVec Ideal S50000x128 .f32) (e : IVec S2x640000 32) : FVec Ideal S50000x128 .f32 :=
  Host.scatterAdd (F := Ideal) scatter_S50000x128_S640000x1_S640000x128_1_0_0_1 (val_main_v11 (F := Ideal)) (val_main_v12 (F := Ideal) e)
    (Host.gather gather_S50000x128_S640000x1_S640000x128_1_0_n_n_0_1_1128 y (val_main_v9 (F := Ideal) e))

theorem dot_plain : dot_S50000x128_S128x128_S50000x128_1_0_0_1_n_n
    = (⟨[1], [0], [0], [1], [], [], dot_S50000x128_S128x128_S50000x128_1_0_0_1_n_n_wf⟩ : DotDims S50000x128 S128x128 S50000x128) := rfl

theorem dot_plain64 : dot_S50000x128_S128x64_S50000x64_1_0_0_1_n_n
    = (⟨[1], [0], [0], [1], [], [], dot_S50000x128_S128x64_S50000x64_1_0_0_1_n_n_wf⟩ : DotDims S50000x128 S128x64 S50000x64) := rfl

/-- The host's product of a 50000×128 by a 128×128 matrix at entry (r, q). -/
theorem dot_apply (L : FVec Ideal S50000x128 .f32) (R : FVec Ideal S128x128 .f32) (r : Fin 50000) (q : Fin 128) :
    Host.dotGeneral (F := Ideal) dot_S50000x128_S128x128_S50000x128_1_0_0_1_n_n none L R (ix2 r q) = ∑ k : Fin 128, L (ix2 r k) * R (ix2 k q) := by
  rw [dot_plain]
  exact Cert.Dense.hostDot_plain_apply _ L R r q

/-- The host's product of a 50000×128 by a 128×64 matrix at entry (r, j). -/
theorem dot64_apply (L : FVec Ideal S50000x128 .f32) (R : FVec Ideal S128x64 .f32) (r : Fin 50000) (j : Fin 64) :
    Host.dotGeneral (F := Ideal) dot_S50000x128_S128x64_S50000x64_1_0_0_1_n_n none L R (ix2 r j) = ∑ k : Fin 128, L (ix2 r k) * R (ix2 k j) := by
  rw [dot_plain64]
  exact Cert.Dense.hostDot_plain_apply _ L R r j

/-- A layer of the reference at entry (r, q). -/
theorem refLayer_apply (A : FVec Ideal S50000x128 .f32) (C : FVec Ideal S50000 .f32) (X : FVec Ideal S50000x128 .f32)
    (Wl : FVec Ideal S128x128 .f32) (b : FVec Ideal S128 .f32) (Wr : FVec Ideal S128x128 .f32) (r : Fin 50000) (q : Fin 128) :
    refLayer A C X Wl b Wr (ix2 r q) = layerAt (meanDiv (n := 50000) A C) X Wl Wr b r q := by
  unfold refLayer
  rw [addf_apply, addf_apply, dot_apply, dot_apply, Cert.Dense.bcastRows_apply, Cert.Dense.bcastRow_apply]
  unfold layerAt meanDiv
  refine congrArg (fun s => s + b (ix1 q) + ∑ k : Fin 128, X (ix2 r k) * Wr (ix2 k q)) ?_
  refine Finset.sum_congr rfl fun k _ => ?_
  refine congrArg (fun s => s * Wl (ix2 k q)) ?_
  show Ideal.div (A (ix2 r k)) _ = _
  rw [bcastCol_apply, bcastVecCol_apply, maximumf_apply, Cert.Dense.bcastScalar_apply, constant_apply]

/-! ## The generated stage functions are these -/

variable (x0 : FVec Ideal S50000x128 .f32) (x1 : IVec S2x640000 32) (x2 : FVec Ideal S128x128 .f32) (x3 : FVec Ideal S128 .f32)
  (x4 x5 : FVec Ideal S128x128 .f32) (x6 : FVec Ideal S128 .f32) (x7 : FVec Ideal S128x128 .f32) (x8 : FVec Ideal S128x64 .f32)

theorem v13_eq : val_main_v13 (F := Ideal) x0 x1 = refAgg x0 x1 := by
  unfold val_main_v13 val_main_v10 refAgg; rfl

theorem v39_eq : val_main_v39 (F := Ideal) x0 x1 x2 x3 x4 = refAgg (val_main_v29 (F := Ideal) x0 x1 x2 x3 x4) x1 := by
  unfold val_main_v39 val_main_v36 val_main_v37 val_main_v38 val_main_v35 val_main_v34 val_main_v33 val_main_v32 val_main_v31
    val_main_v30 val_main_c_4 val_main_c_5 val_main_cst_6
    refAgg val_main_v11 val_main_v12 val_main_v9 val_main_v8 val_main_v7 val_main_v6 val_main_v5 val_main_v4 val_main_c val_main_c_0
    val_main_cst
  rfl

theorem v43_eq : val_main_v43 (F := Ideal) x1 = val_main_v17 (F := Ideal) x1 := by
  unfold val_main_v43 val_main_v41 val_main_v42 val_main_v40 val_main_cst_7 val_main_cst_8
    val_main_v17 val_main_v15 val_main_v16 val_main_v14 val_main_cst_1 val_main_cst_2
  rfl

theorem v28_eq : val_main_v28 (F := Ideal) x0 x1 x2 x3 x4 = refLayer (refAgg x0 x1) (val_main_v17 (F := Ideal) x1) x0 x2 x3 x4 := by
  rw [← v13_eq]
  unfold val_main_v28 val_main_v26 val_main_v27 val_main_v23 val_main_v25 val_main_v24 val_main_v22 val_main_v21 val_main_v20
    val_main_v19 val_main_v18 val_main_cst_3 refLayer
  rfl

theorem v54_eq : val_main_v54 (F := Ideal) x0 x1 x2 x3 x4 x5 x6 x7
    = refLayer (refAgg (val_main_v29 (F := Ideal) x0 x1 x2 x3 x4) x1) (val_main_v17 (F := Ideal) x1)
        (val_main_v29 (F := Ideal) x0 x1 x2 x3 x4) x5 x6 x7 := by
  rw [← v39_eq, ← v43_eq]
  unfold val_main_v54 val_main_v52 val_main_v53 val_main_v49 val_main_v51 val_main_v50 val_main_v48 val_main_v47 val_main_v46
    val_main_v45 val_main_v44 val_main_cst_9 refLayer
  rfl

/-- The reference's first layer with its activation at entry (r, q). -/
theorem v29_apply (r : Fin 50000) (q : Fin 128) :
    val_main_v29 (F := Ideal) x0 x1 x2 x3 x4 (ix2 r q)
      = max (layerAt (meanDiv (n := 50000) (refAgg x0 x1) (val_main_v17 (F := Ideal) x1)) x0 x2 x4 x3 r q)
          (Ideal.ofBits .f32 0x00000000#32) := by
  unfold val_main_v29 val_main_call0_v0 val_main_call0_cst
  rw [maximumf_apply, v28_eq, refLayer_apply, Cert.Dense.bcastScalar_apply, constant_apply]

/-- The reference's second layer at entry (r, q). -/
theorem v54_apply (r : Fin 50000) (q : Fin 128) :
    val_main_v54 (F := Ideal) x0 x1 x2 x3 x4 x5 x6 x7 (ix2 r q)
      = layerAt (meanDiv (n := 50000) (refAgg (val_main_v29 (F := Ideal) x0 x1 x2 x3 x4) x1) (val_main_v17 (F := Ideal) x1))
          (val_main_v29 (F := Ideal) x0 x1 x2 x3 x4) x5 x7 x6 r q := by
  rw [v54_eq, refLayer_apply]

/-- The reference's projection at entry (r, j). -/
theorem v55_apply (r : Fin 50000) (j : Fin 64) :
    val_main_v55 (F := Ideal) x0 x1 x2 x3 x4 x5 x6 x7 x8 (ix2 r j)
      = ∑ k : Fin 128, val_main_v54 (F := Ideal) x0 x1 x2 x3 x4 x5 x6 x7 (ix2 r k) * x8 (ix2 k j) := by
  unfold val_main_v55
  rw [dot64_apply]

end Cert.ReferenceIdeal.Layer

end
-- ==== Proof.Bridge.lean ====
/-
  The two programs compute the same functions of their arguments.
  The edge-list rows, the wrap of negative source indices, the gather and the two scatters are the same operations in
  both programs (the kernel program gathers from a copy rounded to a narrower format and widens the result, which on
  the extended reals changes nothing), so the neighbour sums and the in-degree count agree as arrays.  With the
  normaliser column holding 1 / max(count, 1), the product form of the row normalisation is the quotient form
  (SageLayer.lean), so the first layers agree entry by entry; the second layers then agree because they are the same
  layer of equal inputs; and the kernel's projection through weights padded with 64 zero columns, cut back to its
  first 64 columns, never reads a padded column: it is the reference's projection.
-/
import proofs.«180879_j60765197304598_2_alg».proof.Proof.KernelHost
import proofs.«180879_j60765197304598_2_alg».proof.Proof.RefLayer
import Idealize.ShloMosaic.Lib.KernelVsHost

set_option maxRecDepth 16384

noncomputable section

namespace Cert.Bridge

open Idealize.ShloMosaic Idealize.ShloMosaic.ValueIdx Cert.Sage
open Cert.KernelIdeal.HostSide Cert.ReferenceIdeal.Read Cert.ReferenceIdeal.Layer

variable (x : (⟨Cert.KernelIdeal.S50000x128, .f32⟩ : BufTy).Contents (Elt Ideal)) (e : (⟨Cert.KernelIdeal.S2x640000, .i32⟩ : BufTy).Contents (Elt Ideal))
  (wl1 : (⟨Cert.KernelIdeal.S128x128, .f32⟩ : BufTy).Contents (Elt Ideal)) (b1 : (⟨Cert.KernelIdeal.S128, .f32⟩ : BufTy).Contents (Elt Ideal)) (wr1 wl2 : (⟨Cert.KernelIdeal.S128x128, .f32⟩ : BufTy).Contents (Elt Ideal)) (b2 : (⟨Cert.KernelIdeal.S128, .f32⟩ : BufTy).Contents (Elt Ideal))
  (wr2 : (⟨Cert.KernelIdeal.S128x128, .f32⟩ : BufTy).Contents (Elt Ideal)) (ws : (⟨Cert.KernelIdeal.S128x64, .f32⟩ : BufTy).Contents (Elt Ideal))

/-- The neighbour sums agree as arrays. -/
theorem agg_eq (y : (⟨Cert.KernelIdeal.S50000x128, .f32⟩ : BufTy).Contents (Elt Ideal)) : aggOf (F := Ideal) y (srcOf e) (dstOf e) = refAgg y e := by
  unfold aggOf srcOf dstOf refAgg val_main_v11 val_main_v12 val_main_v9 val_main_v8 val_main_v7 val_main_v6 val_main_v5
    val_main_v4 val_main_c val_main_c_0 val_main_cst val_main_v3 val_main_v2 val_main_v1 val_main_v0
  rfl

/-- The in-degree counts agree as arrays. -/
theorem cnt_eq : cntOf (F := Ideal) (dstOf e) = val_main_v17 (F := Ideal) e := by
  unfold cntOf dstOf val_main_v17 val_main_v15 val_main_v16 val_main_v14 val_main_cst_1 val_main_cst_2 val_main_v3 val_main_v2
  rfl

/-- The product form of the normalised neighbour sums is the quotient form. -/
theorem mean_eq (y : (⟨Cert.KernelIdeal.S50000x128, .f32⟩ : BufTy).Contents (Elt Ideal)) :
    meanMul (n := 50000) (aggOf (F := Ideal) y (srcOf e) (dstOf e)) (invOf (F := Ideal) (dstOf e))
      = meanDiv (n := 50000) (refAgg y e) (val_main_v17 (F := Ideal) e) := by
  rw [meanMul_eq_meanDiv _ _ (cntOf (F := Ideal) (dstOf e)) (inv_col (dstOf e)), agg_eq, cnt_eq]

/-- The first kernel's output is the reference's first activated layer. -/
theorem h1_eq : h1 x e wl1 b1 wr1 = val_main_v29 (F := Ideal) x e wl1 b1 wr1 := by
  funext i
  obtain ⟨r, q, rfl⟩ : ∃ (r : Fin 50000) (q : Fin 128), i = ix2 r q := ⟨i 0, i 1, eq_ix2 i⟩
  rw [v29_apply]
  unfold h1 act
  rw [pre_ix2, mean_eq]

/-- The second kernel's first output is the reference's second layer. -/
theorem h2_eq : h2 x e wl1 b1 wr1 wl2 b2 wr2 = val_main_v54 (F := Ideal) x e wl1 b1 wr1 wl2 b2 wr2 := by
  funext i
  obtain ⟨r, q, rfl⟩ : ∃ (r : Fin 50000) (q : Fin 128), i = ix2 r q := ⟨i 0, i 1, eq_ix2 i⟩
  rw [v54_apply]
  unfold h2
  rw [pre_ix2, mean_eq, h1_eq]

/-- A kept column of the padded projection weights is the weights' column. -/
theorem pad_kept (k : Fin 128) (j : Fin 64) (hj : j.val < 128) :
    padOf (F := Ideal) ws (ix2 k (⟨j.val, hj⟩ : Fin 128)) = ws (ix2 k j) := by
  unfold padOf
  exact pad_apply_of_inside _ _ _ ws _ Cert.KernelIdeal.Gen.pads_S128x64_S128x128_000_0640 Cert.KernelIdeal.Gen.h_S_ _ (ix2 k j)
    (fun a => match a with
      | ⟨0, _⟩ => by show k.val = 0 + k.val * (0 + 1); omega
      | ⟨1, _⟩ => by show j.val = 0 + j.val * (0 + 1); omega)

/-- The first 64 columns of the second kernel's projected output are the reference's projection. -/
theorem out_eq :
    extractStridedSlice Cert.KernelIdeal.S50000x64 ![0, 0] (p2 x e wl1 b1 wr1 wl2 b2 wr2 ws)
        Cert.KernelIdeal.Gen.slices_S50000x128_S50000x64_0_0
      = val_main_v55 (F := Ideal) x e wl1 b1 wr1 wl2 b2 wr2 ws := by
  funext i
  obtain ⟨r, j, rfl⟩ : ∃ (r : Fin 50000) (j : Fin 64), i = ix2 r j := ⟨i 0, i 1, eq_ix2 i⟩
  have hj : j.val < 128 := by have := j.isLt; omega
  rw [v55_apply, slice2_axis1_apply 0 _ _ r j (⟨j.val, hj⟩ : Fin 128) (by simp)]
  unfold p2
  rw [proj_ix2]
  refine Finset.sum_congr rfl fun k _ => ?_
  rw [pad_kept, ← h2_eq]
  rfl

end Cert.Bridge

end
-- ==== Proof.lean ====
/-
  The certificate of a two-layer mean-aggregating graph convolution with a final projection: the kernel program
  (two row-blocked kernels for the dense algebra of the two layers, with the gather / scatter neighbour sums, the
  in-degree count and its reciprocal computed on the host around them) against the reference (the same network written
  as whole-array host operations).

  The three frames are the generated frame runs (for the reference, its generated run with the results dropped).
  Nothing was rewritten when the kernel program was idealized, so that conjunct is trivial.  For the value claim, the
  kernel program's run ends with its results at h₂ and at the first 64 columns of h₂ times the zero-padded projection
  (KernelValue.lean, from the blocks of KernelBlocks.lean and the host stretches of KernelHost.lean), the reference's run
  ends at its own composed term, and the two are one function of the arguments (Bridge.lean): the only law used is that
  dividing by max(count, 1) is multiplying by its reciprocal, which holds for every extended real, so the precondition
  is never opened.
-/
import proofs.«180879_j60765197304598_2_alg».proof.Defs
import proofs.«180879_j60765197304598_2_alg».proof.Proof.Gen.Kernel
import proofs.«180879_j60765197304598_2_alg».proof.Proof.Gen.Kernel.Frame
import proofs.«180879_j60765197304598_2_alg».proof.Proof.Gen.KernelIdeal
import proofs.«180879_j60765197304598_2_alg».proof.Proof.Gen.KernelIdeal.Frame
import proofs.«180879_j60765197304598_2_alg».proof.Proof.Gen.ReferenceIdeal
import proofs.«180879_j60765197304598_2_alg».proof.Proof.Gen.ReferenceIdeal.Run
import proofs.«180879_j60765197304598_2_alg».proof.Proof.Gen.ReferenceIdeal.Read
import proofs.«180879_j60765197304598_2_alg».proof.Proof.Gen.Pre_finite_inputs
import proofs.«180879_j60765197304598_2_alg».proof.Proof.KernelValue
import proofs.«180879_j60765197304598_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end at h₂ and at its projection, as functions of arguments that agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v55_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact (Cert.Bridge.out_eq _ _ _ _ _ _ _ _ _).symm
  · rw [Cert.ReferenceIdeal.Read.val_main_v54_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1]
    exact (Cert.Bridge.h2_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
